-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64 .f32) (main_arg6 : FVec F S64x128 .f32) (main_arg7 : FVec F S128 .f32) (main_arg8 : FVec F S128x2 .f32) (main_arg9 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x128 .f32) (main_arg7 : FVec F S128 .f32) (main_arg8 : FVec F S128x2 .f32) (main_arg9 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x64 : Shape := ⟨2, ![5000, 64]⟩
abbrev S1600000x64 : Shape := ⟨2, ![1600000, 64]⟩
abbrev S1x64 : Shape := ⟨2, ![1, 64]⟩
abbrev S5000x1 : Shape := ⟨2, ![5000, 1]⟩
abbrev S1x128 : Shape := ⟨2, ![1, 128]⟩
abbrev S1x2 : Shape := ⟨2, ![1, 2]⟩
abbrev S100000x2 : Shape := ⟨2, ![100000, 2]⟩
abbrev S5000x2 : Shape := ⟨2, ![5000, 2]⟩
abbrev S5000x128 : Shape := ⟨2, ![5000, 128]⟩

abbrev nBuf : Space → Nat
  | .hbm => 85
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S100000, .f32⟩
  | .hbm, ⟨44, _⟩ => ⟨S100000x1, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S1600000x1, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S1600000x1, .f32⟩
  | .hbm, ⟨75, _⟩ => ⟨S1600000x64, .f32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S1x64, .f32⟩
  | .hbm, ⟨82, _⟩ => ⟨S1x128, .f32⟩
  | .hbm, ⟨83, _⟩ => ⟨S1x2, .f32⟩
  | .hbm, ⟨84, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S1x64, .f32⟩
  | .local _ .vmem, ⟨24, _⟩ => ⟨S64x128, .f32⟩
  | .local _ .vmem, ⟨25, _⟩ => ⟨S1x128, .f32⟩
  | .local _ .vmem, ⟨26, _⟩ => ⟨S128x2, .f32⟩
  | .local _ .vmem, ⟨27, _⟩ => ⟨S1x2, .f32⟩
  | .local _ .vmem, ⟨28, _⟩ => ⟨S5000x2, .f32⟩
  | .local _ .vmem, ⟨29, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43_0 : Ref sig .tc := ⟨.hbm, 63, rfl⟩
abbrev main_v43_1 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x2 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  shapeCasts_S128_S1x128 : S128.ShapeCasts S1x128
  shapeCasts_S2_S1x2 : S2.ShapeCasts S1x2
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x2.size a ≤ S128x2.size a
  hwx2_6 : ∀ i : grid2.Coords, EltTy.bits .f32 = 32 ∨ (Rect.block (s := S128x2) S128x2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x2.size a ≤ S1x2.size a
  hwx2_7 : ∀ i : grid2.Coords, EltTy.bits .f32 = 32 ∨ (Rect.block (s := S1x2) S1x2.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x2.size a ≤ S100000x2.size a
  hwx2_8 : ∀ i : grid2.Coords, EltTy.bits .f32 = 32 ∨ (Rect.block (s := S100000x2) S5000x2.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v43_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v56) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43_1) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S128x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v59) S1x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v60) S5000x2.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x128 : Shape := ⟨2, ![100000, 128]⟩
abbrev S1x128 : Shape := ⟨2, ![1, 128]⟩
abbrev S100000x2 : Shape := ⟨2, ![100000, 2]⟩
abbrev S1x2 : Shape := ⟨2, ![1, 2]⟩

abbrev nBuf : Space → Nat
  | .hbm => 139
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x128, .f32⟩
  | 7 => ⟨S128, .f32⟩
  | 8 => ⟨S128x2, .f32⟩
  | 9 => ⟨S2, .f32⟩
  | 10 => ⟨S1x1600000, .i32⟩
  | 11 => ⟨S1600000, .i32⟩
  | 12 => ⟨S1x1600000, .i32⟩
  | 13 => ⟨S1600000, .i32⟩
  | 14 => ⟨S100000x64, .f32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x1, .f32⟩
  | 54 => ⟨S1600000x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S100000, .f32⟩
  | 61 => ⟨S100000x1, .f32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .f32⟩
  | 73 => ⟨S1600000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S100000, .f32⟩
  | 81 => ⟨S100000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x64, .f32⟩
  | 110 => ⟨S1600000x1, .f32⟩
  | 111 => ⟨S1600000x64, .f32⟩
  | 112 => ⟨S1600000x64, .f32⟩
  | 113 => ⟨S_, .f32⟩
  | 114 => ⟨S100000x64, .f32⟩
  | 115 => ⟨S1600000x1, .i32⟩
  | 116 => ⟨S100000x64, .f32⟩
  | 117 => ⟨S100000, .f32⟩
  | 118 => ⟨S100000x1, .f32⟩
  | 119 => ⟨S100000x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x64, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S100000x2, .f32⟩
  | 8 => ⟨S1x2, .f32⟩
  | 9 => ⟨S100000x2, .f32⟩
  | 10 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_17 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call1_cst : Ref sig .tc := ⟨.hbm, 125, rfl⟩
abbrev main_call1_v0 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_call2_cst : Ref sig .tc := ⟨.hbm, 132, rfl⟩
abbrev main_call2_v0 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x2_S100000x2_1_0_0_1_n_n_wf : DotDims.WF S100000x128 S128x2 S100000x2 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRun.lean ====
/-
  The idealized kernel program's run with its result named.

  The program is six segments: host operations, the first projection, host operations (gather, scale, scatter-add),
  the layer-one finish with the second projection, host operations again, and the layer-two finish with the dense head.
  The contents of every buffer at each boundary are a fold from the launch memory; the last boundary's contents hold
  the program's result, and every weakly fair execution ends with the result buffer at those contents and the
  arguments as launched.
-/
import proofs.«134011_j76656576299690_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer at the last boundary's
    contents and every argument as launched. -/
theorem run_out : θ_run defs (onTc (τ := τ) (main (F := F))) ⟨m, fun _ => 0, ρ⟩ (fun r => ∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Run

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Stretches.lean ====
/-
  The host operations between the three regions, read as functions of what they find.

  Before the first region the host computes, from the edge list alone, the source and destination vectors, the
  per-edge weight (the product of the two endpoints' inverse square-root degrees) and the per-node self-loop weight
  (the squared inverse square-root degree, as a column). Between regions it gathers the projected rows at the sources,
  scales them by the edge weights and adds them up at the destinations, and recasts the bias vectors as rows. These
  are the same operations, on the same operands, as the reference's own stages; here each stretch's results are
  stated as those stages of whatever contents the stretch starts from.
-/
import proofs.«134011_j76656576299690_2_alg».proof.Proof.Gen.KernelIdeal.Launch
import proofs.«134011_j76656576299690_2_alg».proof.Proof.Gen.ReferenceIdeal.Read
import proofs.«134011_j76656576299690_2_alg».proof.Proof.LibKeepdims
import Idealize.ShloMosaic.Lib.ValueLayout
import Idealize.ShloMosaic.Lib.ValueIdx
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.ShloMosaic.StableHlo Idealize.ShloMosaic.ValueIdx

variable (W : Valuation τ sig (Elt Ideal))

/-! ## Before the first region -/

/-- The edges' source vector. -/
theorem s0_src : after (hostOps0 (F := Ideal)) W (Proc.devRef .tc main_v1)
    = Cert.ReferenceIdeal.Read.val_main_v1 (F := Ideal) (W (Proc.devRef .tc main_arg1)) := by
  after_results <;> rfl

/-- The edges' destination vector. -/
theorem s0_dst : after (hostOps0 (F := Ideal)) W (Proc.devRef .tc main_v3)
    = Cert.ReferenceIdeal.Read.val_main_v3 (F := Ideal) (W (Proc.devRef .tc main_arg1)) := by
  after_results <;> rfl

set_option maxHeartbeats 4000000 in
/-- The per-edge weight: the product of the endpoints' inverse square-root degrees. -/
theorem s0_norm : after (hostOps0 (F := Ideal)) W (Proc.devRef .tc main_v25)
    = Cert.ReferenceIdeal.Read.val_main_v26 (F := Ideal) (W (Proc.devRef .tc main_arg1)) := by
  after_results_simp <;> rfl

/-- The self-loop weight of node r, stored as a column: the squared inverse square-root degree. -/
theorem s0_d2 (r : Fin 100000) :
    (after (hostOps0 (F := Ideal)) W (Proc.devRef .tc main_v27) : S100000x1.Idx → EReal) (ix2 r (0 : Fin 1))
      = Cert.ReferenceIdeal.Read.val_main_v40 (F := Ideal) (W (Proc.devRef .tc main_arg1)) (ix1 r) := by
  have e : after (hostOps0 (F := Ideal)) W (Proc.devRef .tc main_v27)
      = shapeCast S100000x1 (Cert.ReferenceIdeal.Read.val_main_v40 (F := Ideal) (W (Proc.devRef .tc main_arg1))) shapeCasts_S100000_S100000x1 := by
    after_results <;> rfl
  rw [e]
  exact Cert.LibKeepdims.shapeCast_a_a1_apply _ _ r 0

theorem s0_keep_main_arg0 : after (hostOps0 (F := Ideal)) W (Proc.devRef .tc main_arg0) = W (Proc.devRef .tc main_arg0) := by
  after_results <;> rfl
theorem s0_keep_main_arg2 : after (hostOps0 (F := Ideal)) W (Proc.devRef .tc main_arg2) = W (Proc.devRef .tc main_arg2) := by
  after_results <;> rfl
theorem s0_keep_main_arg3 : after (hostOps0 (F := Ideal)) W (Proc.devRef .tc main_arg3) = W (Proc.devRef .tc main_arg3) := by
  after_results <;> rfl
theorem s0_keep_main_arg4 : after (hostOps0 (F := Ideal)) W (Proc.devRef .tc main_arg4) = W (Proc.devRef .tc main_arg4) := by
  after_results <;> rfl
theorem s0_keep_main_arg5 : after (hostOps0 (F := Ideal)) W (Proc.devRef .tc main_arg5) = W (Proc.devRef .tc main_arg5) := by
  after_results <;> rfl
theorem s0_keep_main_arg6 : after (hostOps0 (F := Ideal)) W (Proc.devRef .tc main_arg6) = W (Proc.devRef .tc main_arg6) := by
  after_results <;> rfl
theorem s0_keep_main_arg7 : after (hostOps0 (F := Ideal)) W (Proc.devRef .tc main_arg7) = W (Proc.devRef .tc main_arg7) := by
  after_results <;> rfl
theorem s0_keep_main_arg8 : after (hostOps0 (F := Ideal)) W (Proc.devRef .tc main_arg8) = W (Proc.devRef .tc main_arg8) := by
  after_results <;> rfl
theorem s0_keep_main_arg9 : after (hostOps0 (F := Ideal)) W (Proc.devRef .tc main_arg9) = W (Proc.devRef .tc main_arg9) := by
  after_results <;> rfl

/-! ## Between the first and the second region -/

set_option maxHeartbeats 4000000 in
/-- The first layer's sum over incoming edges, from the projected rows, the edge vectors and the edge weights. -/
theorem s1_agg (x0 : (⟨Cert.ReferenceIdeal.S100000x64, .f32⟩ : BufTy).Contents (Elt Ideal))
    (x1 : (⟨Cert.ReferenceIdeal.S2x1600000, .i32⟩ : BufTy).Contents (Elt Ideal))
    (x2 : (⟨Cert.ReferenceIdeal.S64x64, .f32⟩ : BufTy).Contents (Elt Ideal))
    (h28 : W (Proc.devRef .tc main_v28) = Cert.ReferenceIdeal.Read.val_main_v4 (F := Ideal) x0 x2)
    (h1 : W (Proc.devRef .tc main_v1) = Cert.ReferenceIdeal.Read.val_main_v1 (F := Ideal) x1)
    (h3 : W (Proc.devRef .tc main_v3) = Cert.ReferenceIdeal.Read.val_main_v3 (F := Ideal) x1)
    (h25 : W (Proc.devRef .tc main_v25) = Cert.ReferenceIdeal.Read.val_main_v26 (F := Ideal) x1) :
    after (hostOps1 (F := Ideal)) W (Proc.devRef .tc main_v41)
      = Cert.ReferenceIdeal.Read.val_main_v39 (F := Ideal) x0 x1 x2 := by
  after_results_simp
  rw [h28, h1, h3, h25]
  rfl

/-- The first bias as a row. -/
theorem s1_bias (f : Fin 64) :
    (after (hostOps1 (F := Ideal)) W (Proc.devRef .tc main_v42) : S1x64.Idx → EReal) (ix2 (0 : Fin 1) f)
      = (W (Proc.devRef .tc main_arg3) : S64.Idx → EReal) (ix1 f) := by
  have e : after (hostOps1 (F := Ideal)) W (Proc.devRef .tc main_v42)
      = shapeCast S1x64 (W (Proc.devRef .tc main_arg3)) shapeCasts_S64_S1x64 := by
    after_results <;> rfl
  rw [e]
  exact shapeCast_a_1a_apply _ _ 0 f

theorem s1_keep_main_v28 : after (hostOps1 (F := Ideal)) W (Proc.devRef .tc main_v28) = W (Proc.devRef .tc main_v28) := by
  after_results <;> rfl
theorem s1_keep_main_v27 : after (hostOps1 (F := Ideal)) W (Proc.devRef .tc main_v27) = W (Proc.devRef .tc main_v27) := by
  after_results <;> rfl
theorem s1_keep_main_arg4 : after (hostOps1 (F := Ideal)) W (Proc.devRef .tc main_arg4) = W (Proc.devRef .tc main_arg4) := by
  after_results <;> rfl
theorem s1_keep_main_v1 : after (hostOps1 (F := Ideal)) W (Proc.devRef .tc main_v1) = W (Proc.devRef .tc main_v1) := by
  after_results <;> rfl
theorem s1_keep_main_v3 : after (hostOps1 (F := Ideal)) W (Proc.devRef .tc main_v3) = W (Proc.devRef .tc main_v3) := by
  after_results <;> rfl
theorem s1_keep_main_v25 : after (hostOps1 (F := Ideal)) W (Proc.devRef .tc main_v25) = W (Proc.devRef .tc main_v25) := by
  after_results <;> rfl
theorem s1_keep_main_arg5 : after (hostOps1 (F := Ideal)) W (Proc.devRef .tc main_arg5) = W (Proc.devRef .tc main_arg5) := by
  after_results <;> rfl
theorem s1_keep_main_arg6 : after (hostOps1 (F := Ideal)) W (Proc.devRef .tc main_arg6) = W (Proc.devRef .tc main_arg6) := by
  after_results <;> rfl
theorem s1_keep_main_arg7 : after (hostOps1 (F := Ideal)) W (Proc.devRef .tc main_arg7) = W (Proc.devRef .tc main_arg7) := by
  after_results <;> rfl
theorem s1_keep_main_arg8 : after (hostOps1 (F := Ideal)) W (Proc.devRef .tc main_arg8) = W (Proc.devRef .tc main_arg8) := by
  after_results <;> rfl
theorem s1_keep_main_arg9 : after (hostOps1 (F := Ideal)) W (Proc.devRef .tc main_arg9) = W (Proc.devRef .tc main_arg9) := by
  after_results <;> rfl

/-! ## Between the second and the third region -/

set_option maxHeartbeats 4000000 in
/-- The second layer's sum over incoming edges. The reference computes the edge weights anew for this layer; they are
    the same function of the edge list. -/
theorem s2_agg (x0 : (⟨Cert.ReferenceIdeal.S100000x64, .f32⟩ : BufTy).Contents (Elt Ideal))
    (x1 : (⟨Cert.ReferenceIdeal.S2x1600000, .i32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal))
    (h43 : W (Proc.devRef .tc main_v43_1) = Cert.ReferenceIdeal.Read.val_main_v49 (F := Ideal) x0 x1 x2 x3 x4)
    (h1 : W (Proc.devRef .tc main_v1) = Cert.ReferenceIdeal.Read.val_main_v1 (F := Ideal) x1)
    (h3 : W (Proc.devRef .tc main_v3) = Cert.ReferenceIdeal.Read.val_main_v3 (F := Ideal) x1)
    (h25 : W (Proc.devRef .tc main_v25) = Cert.ReferenceIdeal.Read.val_main_v26 (F := Ideal) x1) :
    after (hostOps2 (F := Ideal)) W (Proc.devRef .tc main_v56)
      = Cert.ReferenceIdeal.Read.val_main_v84 (F := Ideal) x0 x1 x2 x3 x4 := by
  after_results_simp
  rw [h43, h1, h3, h25]
  rfl

/-- The second bias as a row. -/
theorem s2_bias5 (f : Fin 64) :
    (after (hostOps2 (F := Ideal)) W (Proc.devRef .tc main_v57) : S1x64.Idx → EReal) (ix2 (0 : Fin 1) f)
      = (W (Proc.devRef .tc main_arg5) : S64.Idx → EReal) (ix1 f) := by
  have e : after (hostOps2 (F := Ideal)) W (Proc.devRef .tc main_v57)
      = shapeCast S1x64 (W (Proc.devRef .tc main_arg5)) shapeCasts_S64_S1x64 := by
    after_results <;> rfl
  rw [e]
  exact shapeCast_a_1a_apply _ _ 0 f

/-- The hidden layer's bias as a row. -/
theorem s2_bias7 (e' : Fin 128) :
    (after (hostOps2 (F := Ideal)) W (Proc.devRef .tc main_v58) : S1x128.Idx → EReal) (ix2 (0 : Fin 1) e')
      = (W (Proc.devRef .tc main_arg7) : S128.Idx → EReal) (ix1 e') := by
  have e : after (hostOps2 (F := Ideal)) W (Proc.devRef .tc main_v58)
      = shapeCast S1x128 (W (Proc.devRef .tc main_arg7)) shapeCasts_S128_S1x128 := by
    after_results <;> rfl
  rw [e]
  exact shapeCast_a_1a_apply _ _ 0 e'

/-- The output bias as a row. -/
theorem s2_bias9 (j : Fin 2) :
    (after (hostOps2 (F := Ideal)) W (Proc.devRef .tc main_v59) : S1x2.Idx → EReal) (ix2 (0 : Fin 1) j)
      = (W (Proc.devRef .tc main_arg9) : S2.Idx → EReal) (ix1 j) := by
  have e : after (hostOps2 (F := Ideal)) W (Proc.devRef .tc main_v59)
      = shapeCast S1x2 (W (Proc.devRef .tc main_arg9)) shapeCasts_S2_S1x2 := by
    after_results <;> rfl
  rw [e]
  exact shapeCast_a_1a_apply _ _ 0 j

theorem s2_keep_main_v43_1 : after (hostOps2 (F := Ideal)) W (Proc.devRef .tc main_v43_1) = W (Proc.devRef .tc main_v43_1) := by
  after_results <;> rfl
theorem s2_keep_main_v27 : after (hostOps2 (F := Ideal)) W (Proc.devRef .tc main_v27) = W (Proc.devRef .tc main_v27) := by
  after_results <;> rfl
theorem s2_keep_main_arg6 : after (hostOps2 (F := Ideal)) W (Proc.devRef .tc main_arg6) = W (Proc.devRef .tc main_arg6) := by
  after_results <;> rfl
theorem s2_keep_main_arg8 : after (hostOps2 (F := Ideal)) W (Proc.devRef .tc main_arg8) = W (Proc.devRef .tc main_arg8) := by
  after_results <;> rfl

/-! ## The reference's second computation of the normalisation is its first -/

/-- The self-loop weights the reference computes for the second layer are those of the first. -/
theorem d2_again (x1 : (⟨Cert.ReferenceIdeal.S2x1600000, .i32⟩ : BufTy).Contents (Elt Ideal)) :
    Cert.ReferenceIdeal.Read.val_main_v85 (F := Ideal) x1 = Cert.ReferenceIdeal.Read.val_main_v40 (F := Ideal) x1 := rfl

end Cert.KernelIdeal.Stretches

end
-- ==== Proof.Spec.lean ====
/-
  The scalar vocabulary of the two-layer graph convolution with a dense head, on the extended reals.

  One entry of a convolution layer after its activation is the positive part of
  (aggregated neighbours) + (the node's own projected value) * (its inverse degree) + (bias);
  one hidden unit of the dense head is the positive part of an inner product plus a bias.
  The zero both positive parts compare with is the value of the all-zero binary32 word.
-/
import Idealize.ShloMosaic.PureOps.Ideal
import Idealize.ShloMosaic.Lib.ValueIdx

noncomputable section

namespace Cert.GcnSpec

open Idealize.ShloMosaic

/-- The positive part: the maximum with the value of the zero word. -/
def pos (s : EReal) : EReal := max s (Ideal.ofBits .f32 0x00000000#32)

/-- One activated entry of a convolution layer: `a` the sum over incoming edges, `h` the node's projected value,
    `d` its inverse degree (the self-loop's weight), `b` the bias. -/
def act (a h d b : EReal) : EReal := pos (a + h * d + b)

end Cert.GcnSpec

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.Payloads.lean ====
/-
  The arithmetic of the three kernel bodies of the two-layer graph convolution with a dense head, read one entry at a
  time on the extended reals (every operation exact, a change of float format the identity).

  * The first body is a matrix product: entry (p, f) is the inner product of row p of the node features with column f
    of the first layer's weights.
  * The second body finishes a convolution layer and projects it. Its first result is, entry by entry, the positive
    part of (aggregated neighbours) + (own projected value) * (inverse degree) + (bias): the inverse degree is a column
    read along the row, the bias a row read along the column. Its second result is the matrix product of that
    activated layer with the second layer's weights.
  * The third body finishes the second layer the same way and applies the dense head: a hidden layer of 128 units,
    each the positive part of an inner product plus a bias, followed by an output layer of 2 units, each an inner
    product with the hidden layer plus a bias.
-/
import proofs.«134011_j76656576299690_2_alg».proof.Proof.Gen.KernelIdeal.Skeleton
import proofs.«134011_j76656576299690_2_alg».proof.Proof.Spec
import proofs.«134011_j76656576299690_2_alg».proof.Proof.LibInnerProducts
import proofs.«134011_j76656576299690_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Idealize.ShloMosaic Idealize.ShloMosaic.ValueIdx Cert.KernelIdeal Cert.KernelIdeal.Gen
open scoped BigOperators

/-! ## Two layout readings: a cast to the same shape followed by a broadcast along one axis -/

/-- A column of per-row values, recast to its own shape and repeated over the columns, reads at (p, c) the value of
    row p. -/
theorem col_apply {α : Type} {m n : ℕ} (v : (⟨2, ![m, 1]⟩ : Shape).Idx → α)
    (hc : (⟨2, ![m, 1]⟩ : Shape).ShapeCasts ⟨2, ![m, 1]⟩) (hb : (⟨2, ![m, 1]⟩ : Shape).Broadcasts ⟨2, ![m, n]⟩)
    (p : Fin m) (c : Fin n) :
    broadcastTo ⟨2, ![m, n]⟩ (shapeCast ⟨2, ![m, 1]⟩ v hc) hb (ix2 p c) = v (ix2 p (0 : Fin 1)) :=
  (Cert.LibKeepdims.broadcastTo_a1_ab_apply _ hb p c).trans (congrFun (shapeCast_self v hc) _)

/-- A row of per-column values, recast to its own shape and repeated over the rows, reads at (p, c) the value of
    column c. -/
theorem row_apply {α : Type} {m n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![m, n]⟩)
    (p : Fin m) (c : Fin n) :
    broadcastTo ⟨2, ![m, n]⟩ (shapeCast ⟨2, ![1, n]⟩ v hc) hb (ix2 p c) = v (ix2 (0 : Fin 1) c) :=
  (broadcastTo_1b_ab_apply _ hb p c).trans (congrFun (shapeCast_self v hc) _)

/-- A matrix recast to its own shape reads the same entry. -/
theorem same_apply {α : Type} {s : Shape} (v : s.Idx → α) (hc : s.ShapeCasts s) (i : s.Idx) :
    shapeCast s v hc i = v i :=
  congrFun (shapeCast_self v hc) i

/-! ## The three bodies -/

/-- The first body: entry (p, f) of the projected features is the inner product of row p of the features with column f
    of the weights. -/
theorem proj0_apply (x : Vec Ideal S5000x64 .f32) (w : Vec Ideal S64x64 .f32) (p : Fin 5000) (f : Fin 64) :
    k0_pay1 (F := Ideal) x w (ix2 p f) = ∑ k : Fin 64, x (ix2 p k) * w (ix2 k f) := by
  unfold k0_pay1
  refine (InnerProducts.matmul_zero_apply _ rfl none _ _ p f).trans ?_
  rfl

/-- The activated layer: entry (p, f) is the positive part of the aggregated neighbours plus the node's own projected
    value times its inverse degree (the column's entry of row p) plus the bias (the row's entry of column f). -/
theorem act1_apply (a h : Vec Ideal S5000x64 .f32) (d : Vec Ideal S5000x1 .f32) (b : Vec Ideal S1x64 .f32) (p : Fin 5000) (f : Fin 64) :
    k1_pay1 (F := Ideal) a h d b (ix2 p f)
      = Cert.GcnSpec.act (a (ix2 p f)) (h (ix2 p f)) (d (ix2 p (0 : Fin 1))) (b (ix2 (0 : Fin 1) f)) := by
  unfold k1_pay1 Cert.GcnSpec.act Cert.GcnSpec.pos
  -- the outermost operation is the maximum with zero; below it two sums, a product, and the layout readings
  refine (maximumf_apply _ _ (ix2 p f)).trans ?_
  refine congrArg₂ max ?_ rfl
  refine (addf_apply _ _ (ix2 p f)).trans ?_
  refine congrArg₂ (· + ·) ?_ (row_apply b _ _ p f)
  refine (addf_apply _ _ (ix2 p f)).trans ?_
  refine congrArg₂ (· + ·) (same_apply a _ _) ?_
  refine (mulf_apply _ _ (ix2 p f)).trans ?_
  exact congrArg₂ (· * ·) (same_apply h _ _) (col_apply d _ _ p f)

/-- The second layer's projection: entry (p, f) is the inner product of row p of the activated first layer with
    column f of the second layer's weights. -/
theorem proj1_apply (a h : Vec Ideal S5000x64 .f32) (d : Vec Ideal S5000x1 .f32) (b : Vec Ideal S1x64 .f32) (w : Vec Ideal S64x64 .f32) (p : Fin 5000) (f : Fin 64) :
    k1_pay2 (F := Ideal) a h d b w (ix2 p f)
      = ∑ k : Fin 64, Cert.GcnSpec.act (a (ix2 p k)) (h (ix2 p k)) (d (ix2 p (0 : Fin 1))) (b (ix2 (0 : Fin 1) k)) * w (ix2 k f) := by
  unfold k1_pay2
  refine (InnerProducts.matmul_zero_apply _ rfl none _ _ p f).trans ?_
  refine Finset.sum_congr rfl fun k _ => ?_
  exact congrArg (fun t => t * w (ix2 k f)) (act1_apply a h d b p k)

/-- The dense head on the activated second layer: output (p, j) is the bias of unit j plus the inner product of the
    hidden layer of node p with column j of the output weights, where hidden unit e of node p is the positive part of
    the bias of unit e plus the inner product of row p of the activated layer with column e of the hidden weights. -/
theorem head2_apply (a h : Vec Ideal S5000x64 .f32) (d : Vec Ideal S5000x1 .f32) (b : Vec Ideal S1x64 .f32) (wd : Vec Ideal S64x128 .f32) (bd : Vec Ideal S1x128 .f32) (wo : Vec Ideal S128x2 .f32) (bo : Vec Ideal S1x2 .f32) (p : Fin 5000) (j : Fin 2) :
    k2_pay1 (F := Ideal) a h d b wd bd wo bo (ix2 p j)
      = (∑ e : Fin 128, Cert.GcnSpec.pos ((∑ k : Fin 64, Cert.GcnSpec.act (a (ix2 p k)) (h (ix2 p k)) (d (ix2 p (0 : Fin 1))) (b (ix2 (0 : Fin 1) k)) * wd (ix2 k e)) + bd (ix2 (0 : Fin 1) e)) * wo (ix2 e j)) + bo (ix2 (0 : Fin 1) j) := by
  unfold k2_pay1
  -- the output layer: a matrix product plus a row of biases
  refine (addf_apply _ _ (ix2 p j)).trans ?_
  refine congrArg₂ (· + ·) ?_ (row_apply bo _ _ p j)
  refine (InnerProducts.matmul_zero_apply _ rfl none _ _ p j).trans ?_
  refine Finset.sum_congr rfl fun e _ => ?_
  refine congrArg (fun t => t * wo (ix2 e j)) ?_
  -- one hidden unit: the positive part of a matrix product's entry plus its bias
  unfold Cert.GcnSpec.pos
  refine (maximumf_apply _ _ (ix2 p e)).trans ?_
  refine congrArg₂ max ?_ rfl
  refine (addf_apply _ _ (ix2 p e)).trans ?_
  refine congrArg₂ (· + ·) ?_ (row_apply bd _ _ p e)
  refine (InnerProducts.matmul_zero_apply _ rfl none _ _ p e).trans ?_
  refine Finset.sum_congr rfl fun k _ => ?_
  -- the left factor is the activated second layer, the same arithmetic as the activated first layer
  exact congrArg (fun t => t * wd (ix2 k e)) (act1_apply a h d b p k)

end Cert.KernelIdeal.Payloads

end
-- ==== Proof.Region0.lean ====
/-
  The first projection's array: row blocks of a matrix product are the rows of the whole product.

  The first region walks twenty points; point t loads rows 5000 t … 5000 t + 4999 of the node features and the whole
  weight matrix, and writes back the block's product as rows 5000 t … 5000 t + 4999 of the result. An entry of a
  matrix product depends on one row of the left factor only, so every block written back is a block of ONE array
  — any array whose entry (r, f) is the inner product of row r of the features with column f of the weights — and
  the twenty blocks cover the result: after the region the result array is that array.
-/
import proofs.«134011_j76656576299690_2_alg».proof.Proof.Gen.KernelIdeal.Frame
import proofs.«134011_j76656576299690_2_alg».proof.Proof.Payloads
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the twenty points: the features' and the result's row block is the point's number,
    every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block is row 5000 t + p of the array. -/
def row (t : Fin cfg0.N) (p : Fin 5000) : Fin 100000 :=
  ⟨5000 * t.val + p.val, by have h := t.isLt; have hN : cfg0.N = 20 := N_0; omega⟩

/-- The features' block at point t, entry (p, k), is the features at (5000 t + p, k). -/
theorem x_blk (c : Dev nD) (t : Fin cfg0.N) (p : Fin 5000) (k : Fin 64) :
    (iblk0 V c 0 t : Vec Ideal S5000x64 .f32) (ix2 p k) = (V c main_arg0 : S100000x64.Idx → EReal) (ix2 (row t p) k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

/-- The weights' block at every point is the whole weight matrix. -/
theorem w_blk (c : Dev nD) (t : Fin cfg0.N) (k f : Fin 64) :
    (iblk0 V c 1 t : Vec Ideal S64x64 .f32) (ix2 k f) = (V c main_arg2 : S64x64.Idx → EReal) (ix2 k f) := by
  obtain ⟨-, -, e2, e3, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 64 + 1 * k.val = k.val; rw [e2]; omega
  | ⟨1, _⟩ => show win0_1.index t (1 : Fin 2) * 64 + 1 * f.val = f.val; rw [e3]; omega

/-- Entry (p, f) of the result's block at point t sits at (5000 t + p, f) of the result array. -/
theorem out_emb (t : Fin cfg0.N) (p : Fin 5000) (f : Fin 64) :
    ((cfg0.win 2).blk t).view.emb (ix2 p f) = (ix2 (row t p) f : S100000x64.Idx) := by
  obtain ⟨-, -, -, -, e4, e5⟩ := idx_facts t
  refine funext fun a => Fin.ext ?_
  match a with
  | ⟨0, _⟩ => show win0_2.index t (0 : Fin 2) * 5000 + 1 * p.val = 5000 * t.val + p.val; rw [e4]; omega
  | ⟨1, _⟩ => show win0_2.index t (1 : Fin 2) * 64 + 1 * f.val = f.val; rw [e5]; omega

/-- What point t writes back is block t of any array of the inner products. -/
theorem flushed_eq (c : Dev nD) (X : S100000x64.Idx → EReal) (Wt : S64x64.Idx → EReal)
    (hX : (V c main_arg0 : S100000x64.Idx → EReal) = X) (hW : (V c main_arg2 : S64x64.Idx → EReal) = Wt)
    (G : S100000x64.Idx → EReal)
    (hG : ∀ (r : Fin 100000) (f : Fin 64), G (ix2 r f) = ∑ k : Fin 64, X (ix2 r k) * Wt (ix2 k f))
    (t : Fin cfg0.N) :
    (dat0 V c).flushed 2 t = ((cfg0.win 2).blk t).view.read (Elt Ideal) G := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  refine funext fun (y : S5000x64.Idx) => ?_
  obtain ⟨p, f, rfl⟩ : ∃ (p : Fin 5000) (f : Fin 64), y = ix2 p f := ⟨y 0, y 1, eq_ix2 y⟩
  show k0_pay1 (iblk0 V c 0 t) (iblk0 V c 1 t) (ix2 p f) = G (((cfg0.win 2).blk t).view.emb (ix2 p f))
  rw [out_emb, hG]
  refine (Cert.KernelIdeal.Payloads.proj0_apply _ _ p f).trans ?_
  refine Finset.sum_congr rfl fun k _ => ?_
  rw [x_blk, w_blk, hX, hW]
  try rfl

/-- An index of the result array is in point t's block iff each coordinate is in the block's range. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v28).slice (win0_2.rect t)).set ↔ _
  rw [View.set_slice_whole, Rect.mem_set_unit]
  exact Iff.rfl

/-- Row r lies in the block of point r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

/-- After the region the result array is the array of the inner products. -/
theorem final (c : Dev nD) (X : S100000x64.Idx → EReal) (Wt : S64x64.Idx → EReal)
    (hX : (V c main_arg0 : S100000x64.Idx → EReal) = X) (hW : (V c main_arg2 : S64x64.Idx → EReal) = Wt)
    (G : S100000x64.Idx → EReal)
    (hG : ∀ (r : Fin 100000) (f : Fin 64), G (ix2 r f) = ∑ k : Fin 64, X (ix2 r k) * Wt (ix2 k f)) :
    (dat0 V c).arrAt 2 cfg0.N = G :=
  (dat0 V c).arrAt_eq_of_cover 2 G (fun t _ => flushed_eq V c X Wt hX hW G hG t) cover

end Cert.KernelIdeal.Region0

end
-- ==== Proof.Region1.lean ====
/-
  The second region's two arrays: the first layer's activated rows, and their projection by the second weights.

  Point t loads rows 5000 t … 5000 t + 4999 of the aggregated sums, of the projected features and of the self-loop
  weights (a column), the bias row and the whole weight matrix. It writes back, as the same rows of two results,
  the activated entries act(sum, own value, self-loop weight, bias) and their products with the weight matrix.
  Both depend on one row of each row-blocked operand only, so every block written back is a block of ONE array per
  result, and the twenty blocks cover each result.
-/
import proofs.«134011_j76656576299690_2_alg».proof.Proof.Gen.KernelIdeal.Frame
import proofs.«134011_j76656576299690_2_alg».proof.Proof.Payloads
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row p of point t's block is row 5000 t + p of the array. -/
def row (t : Fin cfg1.N) (p : Fin 5000) : Fin 100000 :=
  ⟨5000 * t.val + p.val, by have h := t.isLt; have hN : cfg1.N = 20 := N_1; omega⟩

/-! ## The printed index maps over the twenty points: row-blocked operands follow the point, the others stay -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)

/-! ## The blocks are rows of the arrays -/

/-- The aggregated sums' block at point t. -/
theorem agg_blk (c : Dev nD) (t : Fin cfg1.N) (p : Fin 5000) (k : Fin 64) :
    (iblk1 V c 0 t : Vec Ideal S5000x64 .f32) (ix2 p k) = (V c main_v41 : S100000x64.Idx → EReal) (ix2 (row t p) k) := by
  obtain ⟨e0, e1⟩ := idx1_0 t
  unfold iblk1
  rw [View.read_apply]
  show V c main_v41 _ = V c main_v41 _
  refine congrArg (V c main_v41) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 64 + 1 * k.val = k.val; rw [e1]; omega

/-- The projected features' block at point t. -/
theorem own_blk (c : Dev nD) (t : Fin cfg1.N) (p : Fin 5000) (k : Fin 64) :
    (iblk1 V c 1 t : Vec Ideal S5000x64 .f32) (ix2 p k) = (V c main_v28 : S100000x64.Idx → EReal) (ix2 (row t p) k) := by
  obtain ⟨e0, e1⟩ := idx1_1 t
  unfold iblk1
  rw [View.read_apply]
  show V c main_v28 _ = V c main_v28 _
  refine congrArg (V c main_v28) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 64 + 1 * k.val = k.val; rw [e1]; omega

/-- The self-loop weights' block at point t. -/
theorem loop_blk (c : Dev nD) (t : Fin cfg1.N) (p : Fin 5000) (k : Fin 1) :
    (iblk1 V c 2 t : Vec Ideal S5000x1 .f32) (ix2 p k) = (V c main_v27 : S100000x1.Idx → EReal) (ix2 (row t p) k) := by
  obtain ⟨e0, e1⟩ := idx1_2 t
  unfold iblk1
  rw [View.read_apply]
  show V c main_v27 _ = V c main_v27 _
  refine congrArg (V c main_v27) (funext fun a => Fin.ext ?_)
  match a with
  | ⟨0, _⟩ => show win1_2.index t (0 : Fin 2) * 5000 + 1 * p.val = 5000 * t.val + p.val; rw [e0]; omega
  | ⟨1, _⟩ => show win1_2.index t (1 : Fin 2) * 1 + 1 * k.val = k.val; rw [e1]; omega

/-- The bias row is whole at every point. -/
theorem bias_blk (c : Dev nD) (t : Fin cfg1.N) (p : Fin 1) (k : Fin 64) :
    (iblk1 V c 3 t : Vec Ideal S1x64 .f32) (ix2 p k) = (V c main_v42 : S1x64.Idx → EReal) (ix2 p k) := by
  obtain ⟨e0, e1⟩ := idx1_3 t
  unfold iblk1
  rw [View.read_apply]
  show V c main_v42 _ = V c main_v42 _
  refine congrArg (V c main_v42) (funext fun a => Fin.ext ?_)
  match a with
  | ⟨0, _⟩ => show win1_3.index t (0 : Fin 2) * 1 + 1 * p.val = p.val; rw [e0]; omega
  | ⟨1, _⟩ => show win1_3.index t (1 : Fin 2) * 64 + 1 * k.val = k.val; rw [e1]; omega

/-- The weight matrix is whole at every point. -/
theorem w_blk (c : Dev nD) (t : Fin cfg1.N) (p : Fin 64) (k : Fin 64) :
    (iblk1 V c 4 t : Vec Ideal S64x64 .f32) (ix2 p k) = (V c main_arg4 : S64x64.Idx → EReal) (ix2 p k) := by
  obtain ⟨e0, e1⟩ := idx1_4 t
  unfold iblk1
  rw [View.read_apply]
  show V c main_arg4 _ = V c main_arg4 _
  refine congrArg (V c main_arg4) (funext fun a => Fin.ext ?_)
  match a with
  | ⟨0, _⟩ => show win1_4.index t (0 : Fin 2) * 64 + 1 * p.val = p.val; rw [e0]; omega
  | ⟨1, _⟩ => show win1_4.index t (1 : Fin 2) * 64 + 1 * k.val = k.val; rw [e1]; omega

/-- Entry (p, f) of the block point t writes back sits at (5000 t + p, f) of the array. -/
theorem emb5 (t : Fin cfg1.N) (p : Fin 5000) (f : Fin 64) :
    ((cfg1.win 5).blk t).view.emb (ix2 p f) = (ix2 (row t p) f : S100000x64.Idx) := by
  obtain ⟨e0, e1⟩ := idx1_5 t
  refine funext fun a => Fin.ext ?_
  match a with
  | ⟨0, _⟩ => show win1_5.index t (0 : Fin 2) * 5000 + 1 * p.val = 5000 * t.val + p.val; rw [e0]; omega
  | ⟨1, _⟩ => show win1_5.index t (1 : Fin 2) * 64 + 1 * f.val = f.val; rw [e1]; omega

/-- Entry (p, f) of the block point t writes back sits at (5000 t + p, f) of the array. -/
theorem emb6 (t : Fin cfg1.N) (p : Fin 5000) (f : Fin 64) :
    ((cfg1.win 6).blk t).view.emb (ix2 p f) = (ix2 (row t p) f : S100000x64.Idx) := by
  obtain ⟨e0, e1⟩ := idx1_6 t
  refine funext fun a => Fin.ext ?_
  match a with
  | ⟨0, _⟩ => show win1_6.index t (0 : Fin 2) * 5000 + 1 * p.val = 5000 * t.val + p.val; rw [e0]; omega
  | ⟨1, _⟩ => show win1_6.index t (1 : Fin 2) * 64 + 1 * f.val = f.val; rw [e1]; omega

/-- The activated entry of row p, column k, of point t's blocks is that of row 5000 t + p of the arrays. -/
theorem act_blk (c : Dev nD) (t : Fin cfg1.N) (p : Fin 5000) (k : Fin 64) :
    Cert.GcnSpec.act ((iblk1 V c 0 t : Vec Ideal S5000x64 .f32) (ix2 p k)) ((iblk1 V c 1 t : Vec Ideal S5000x64 .f32) (ix2 p k))
        ((iblk1 V c 2 t : Vec Ideal S5000x1 .f32) (ix2 p (0 : Fin 1))) ((iblk1 V c 3 t : Vec Ideal S1x64 .f32) (ix2 (0 : Fin 1) k))
      = Cert.GcnSpec.act ((V c main_v41 : S100000x64.Idx → EReal) (ix2 (row t p) k)) ((V c main_v28 : S100000x64.Idx → EReal) (ix2 (row t p) k)) ((V c main_v27 : S100000x1.Idx → EReal) (ix2 (row t p) (0 : Fin 1))) ((V c main_v42 : S1x64.Idx → EReal) (ix2 (0 : Fin 1) k)) := by
  rw [agg_blk, own_blk, loop_blk, bias_blk]

/-! ## What a point writes back -/

/-- The activated rows: what point t writes back is block t of any array of the activated entries. -/
theorem flushed5_eq (c : Dev nD) (AGG H : S100000x64.Idx → EReal) (D : S100000x1.Idx → EReal) (B : S1x64.Idx → EReal)
    (hAGG : (V c main_v41 : S100000x64.Idx → EReal) = AGG) (hH : (V c main_v28 : S100000x64.Idx → EReal) = H)
    (hD : (V c main_v27 : S100000x1.Idx → EReal) = D) (hB : (V c main_v42 : S1x64.Idx → EReal) = B)
    (G : S100000x64.Idx → EReal)
    (hG : ∀ (r : Fin 100000) (f : Fin 64), G (ix2 r f) = Cert.GcnSpec.act (AGG (ix2 r f)) (H (ix2 r f)) (D (ix2 r (0 : Fin 1))) (B (ix2 (0 : Fin 1) f)))
    (t : Fin cfg1.N) :
    (dat1 V c).flushed 5 t = ((cfg1.win 5).blk t).view.read (Elt Ideal) G := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S1x64) hz, View.ld_unit_zero (S := S64x64) hz]
  refine funext fun (y : S5000x64.Idx) => ?_
  obtain ⟨p, f, rfl⟩ : ∃ (p : Fin 5000) (f : Fin 64), y = ix2 p f := ⟨y 0, y 1, eq_ix2 y⟩
  show k1_pay1 (iblk1 V c 0 t) (iblk1 V c 1 t) (iblk1 V c 2 t) (iblk1 V c 3 t) (ix2 p f) = G (((cfg1.win 5).blk t).view.emb (ix2 p f))
  rw [emb5, hG]
  refine (Cert.KernelIdeal.Payloads.act1_apply _ _ _ _ p f).trans ?_
  rw [act_blk, hAGG, hH, hD, hB]

/-- The projected rows: what point t writes back is block t of any array of the activated rows' inner products with the
    weight matrix's columns. -/
theorem flushed6_eq (c : Dev nD) (AGG H : S100000x64.Idx → EReal) (D : S100000x1.Idx → EReal) (B : S1x64.Idx → EReal)
    (hAGG : (V c main_v41 : S100000x64.Idx → EReal) = AGG) (hH : (V c main_v28 : S100000x64.Idx → EReal) = H)
    (hD : (V c main_v27 : S100000x1.Idx → EReal) = D) (hB : (V c main_v42 : S1x64.Idx → EReal) = B)
    (Wt : S64x64.Idx → EReal) (hW : (V c main_arg4 : S64x64.Idx → EReal) = Wt)
    (G : S100000x64.Idx → EReal)
    (hG : ∀ (r : Fin 100000) (f : Fin 64), G (ix2 r f) = ∑ k : Fin 64, Cert.GcnSpec.act (AGG (ix2 r k)) (H (ix2 r k)) (D (ix2 r (0 : Fin 1))) (B (ix2 (0 : Fin 1) k)) * Wt (ix2 k f))
    (t : Fin cfg1.N) :
    (dat1 V c).flushed 6 t = ((cfg1.win 6).blk t).view.read (Elt Ideal) G := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S1x64) hz, View.ld_unit_zero (S := S64x64) hz]
  refine funext fun (y : S5000x64.Idx) => ?_
  obtain ⟨p, f, rfl⟩ : ∃ (p : Fin 5000) (f : Fin 64), y = ix2 p f := ⟨y 0, y 1, eq_ix2 y⟩
  show k1_pay2 (iblk1 V c 0 t) (iblk1 V c 1 t) (iblk1 V c 2 t) (iblk1 V c 3 t) (iblk1 V c 4 t) (ix2 p f) = G (((cfg1.win 6).blk t).view.emb (ix2 p f))
  rw [emb6, hG]
  refine (Cert.KernelIdeal.Payloads.proj1_apply _ _ _ _ _ p f).trans ?_
  refine Finset.sum_congr rfl fun k _ => ?_
  rw [act_blk, w_blk, hAGG, hH, hD, hB, hW]
  try rfl

/-! ## The blocks cover the arrays -/

/-- An index of the array is in point t's block iff each coordinate is in the block's range. -/
theorem mem_blk5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v43_0).slice (win1_5.rect t)).set ↔ _
  rw [View.set_slice_whole, Rect.mem_set_unit]
  exact Iff.rfl

/-- Row r lies in the block of point r / 5000. -/
theorem cover5 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨e0, e1⟩ := idx1_5 ⟨(i 0).val / 5000, ht⟩
  refine ⟨⟨(i 0).val / 5000, ht⟩, flush1_5 _, ?_⟩
  rw [mem_blk5]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e1]; omega

/-- An index of the array is in point t's block iff each coordinate is in the block's range. -/
theorem mem_blk6 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v43_1).slice (win1_6.rect t)).set ↔ _
  rw [View.set_slice_whole, Rect.mem_set_unit]
  exact Iff.rfl

/-- Row r lies in the block of point r / 5000. -/
theorem cover6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨e0, e1⟩ := idx1_6 ⟨(i 0).val / 5000, ht⟩
  refine ⟨⟨(i 0).val / 5000, ht⟩, flush1_6 _, ?_⟩
  rw [mem_blk6]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 64 ≤ (i 1).val ∧ (i 1).val < win1_6.index ⟨(i 0).val / 5000, ht⟩ (1 : Fin 2) * 64 + 64
    rw [e1]; omega

/-! ## The arrays after the region -/

/-- After the region the first result is the array of the activated entries. -/
theorem final5 (c : Dev nD) (AGG H : S100000x64.Idx → EReal) (D : S100000x1.Idx → EReal) (B : S1x64.Idx → EReal)
    (hAGG : (V c main_v41 : S100000x64.Idx → EReal) = AGG) (hH : (V c main_v28 : S100000x64.Idx → EReal) = H)
    (hD : (V c main_v27 : S100000x1.Idx → EReal) = D) (hB : (V c main_v42 : S1x64.Idx → EReal) = B)
    (G : S100000x64.Idx → EReal)
    (hG : ∀ (r : Fin 100000) (f : Fin 64), G (ix2 r f) = Cert.GcnSpec.act (AGG (ix2 r f)) (H (ix2 r f)) (D (ix2 r (0 : Fin 1))) (B (ix2 (0 : Fin 1) f))) :
    (dat1 V c).arrAt 5 cfg1.N = G :=
  (dat1 V c).arrAt_eq_of_cover 5 G (fun t _ => flushed5_eq V c AGG H D B hAGG hH hD hB G hG t) cover5

/-- After the region the second result is the array of the activated rows' inner products with the weights' columns. -/
theorem final6 (c : Dev nD) (AGG H : S100000x64.Idx → EReal) (D : S100000x1.Idx → EReal) (B : S1x64.Idx → EReal)
    (hAGG : (V c main_v41 : S100000x64.Idx → EReal) = AGG) (hH : (V c main_v28 : S100000x64.Idx → EReal) = H)
    (hD : (V c main_v27 : S100000x1.Idx → EReal) = D) (hB : (V c main_v42 : S1x64.Idx → EReal) = B)
    (Wt : S64x64.Idx → EReal) (hW : (V c main_arg4 : S64x64.Idx → EReal) = Wt)
    (G : S100000x64.Idx → EReal)
    (hG : ∀ (r : Fin 100000) (f : Fin 64), G (ix2 r f) = ∑ k : Fin 64, Cert.GcnSpec.act (AGG (ix2 r k)) (H (ix2 r k)) (D (ix2 r (0 : Fin 1))) (B (ix2 (0 : Fin 1) k)) * Wt (ix2 k f)) :
    (dat1 V c).arrAt 6 cfg1.N = G :=
  (dat1 V c).arrAt_eq_of_cover 6 G (fun t _ => flushed6_eq V c AGG H D B hAGG hH hD hB Wt hW G hG t) cover6

end Cert.KernelIdeal.Region1

end
-- ==== Proof.Region2.lean ====
/-
  The third region's array: the second layer's activation, the dense hidden layer and the output layer, row by row.

  Point t loads rows 5000 t … 5000 t + 4999 of the second layer's aggregated sums, of its projected rows and of the
  self-loop weights, the three bias rows and the two weight matrices whole. For each row it forms the activated
  entries, their inner products with the hidden weights' columns plus the hidden bias, the positive parts of those,
  and the inner products of these with the output weights' columns plus the output bias. A row of the result depends
  on the same row of each row-blocked operand only, so every block written back is a block of ONE array, and the
  twenty blocks cover the result.
-/
import proofs.«134011_j76656576299690_2_alg».proof.Proof.Gen.KernelIdeal.Frame
import proofs.«134011_j76656576299690_2_alg».proof.Proof.Payloads
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row p of point t's block is row 5000 t + p of the array. -/
def row (t : Fin cfg2.N) (p : Fin 5000) : Fin 100000 :=
  ⟨5000 * t.val + p.val, by have h := t.isLt; have hN : cfg2.N = 20 := N_2; omega⟩

/-! ## The printed index maps over the twenty points: row-blocked operands follow the point, the others stay -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_8 : ∀ t : Fin cfg2.N, win2_8.index t (0 : Fin 2) = t.val ∧ win2_8.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)

/-! ## The blocks are rows of the arrays -/

/-- The aggregated sums' block at point t. -/
theorem agg_blk (c : Dev nD) (t : Fin cfg2.N) (p : Fin 5000) (k : Fin 64) :
    (iblk2 V c 0 t : Vec Ideal S5000x64 .f32) (ix2 p k) = (V c main_v56 : S100000x64.Idx → EReal) (ix2 (row t p) k) := by
  obtain ⟨e0, e1⟩ := idx2_0 t
  unfold iblk2
  rw [View.read_apply]
  show V c main_v56 _ = V c main_v56 _
  refine congrArg (V c main_v56) (funext fun a => Fin.ext ?_)
  match a with
  | ⟨0, _⟩ => show win2_0.index t (0 : Fin 2) * 5000 + 1 * p.val = 5000 * t.val + p.val; rw [e0]; omega
  | ⟨1, _⟩ => show win2_0.index t (1 : Fin 2) * 64 + 1 * k.val = k.val; rw [e1]; omega

/-- The projected rows' block at point t. -/
theorem own_blk (c : Dev nD) (t : Fin cfg2.N) (p : Fin 5000) (k : Fin 64) :
    (iblk2 V c 1 t : Vec Ideal S5000x64 .f32) (ix2 p k) = (V c main_v43_1 : S100000x64.Idx → EReal) (ix2 (row t p) k) := by
  obtain ⟨e0, e1⟩ := idx2_1 t
  unfold iblk2
  rw [View.read_apply]
  show V c main_v43_1 _ = V c main_v43_1 _
  refine congrArg (V c main_v43_1) (funext fun a => Fin.ext ?_)
  match a with
  | ⟨0, _⟩ => show win2_1.index t (0 : Fin 2) * 5000 + 1 * p.val = 5000 * t.val + p.val; rw [e0]; omega
  | ⟨1, _⟩ => show win2_1.index t (1 : Fin 2) * 64 + 1 * k.val = k.val; rw [e1]; omega

/-- The self-loop weights' block at point t. -/
theorem loop_blk (c : Dev nD) (t : Fin cfg2.N) (p : Fin 5000) (k : Fin 1) :
    (iblk2 V c 2 t : Vec Ideal S5000x1 .f32) (ix2 p k) = (V c main_v27 : S100000x1.Idx → EReal) (ix2 (row t p) k) := by
  obtain ⟨e0, e1⟩ := idx2_2 t
  unfold iblk2
  rw [View.read_apply]
  show V c main_v27 _ = V c main_v27 _
  refine congrArg (V c main_v27) (funext fun a => Fin.ext ?_)
  match a with
  | ⟨0, _⟩ => show win2_2.index t (0 : Fin 2) * 5000 + 1 * p.val = 5000 * t.val + p.val; rw [e0]; omega
  | ⟨1, _⟩ => show win2_2.index t (1 : Fin 2) * 1 + 1 * k.val = k.val; rw [e1]; omega

/-- The layer's bias row is whole at every point. -/
theorem bias_blk (c : Dev nD) (t : Fin cfg2.N) (p : Fin 1) (k : Fin 64) :
    (iblk2 V c 3 t : Vec Ideal S1x64 .f32) (ix2 p k) = (V c main_v57 : S1x64.Idx → EReal) (ix2 p k) := by
  obtain ⟨e0, e1⟩ := idx2_3 t
  unfold iblk2
  rw [View.read_apply]
  show V c main_v57 _ = V c main_v57 _
  refine congrArg (V c main_v57) (funext fun a => Fin.ext ?_)
  match a with
  | ⟨0, _⟩ => show win2_3.index t (0 : Fin 2) * 1 + 1 * p.val = p.val; rw [e0]; omega
  | ⟨1, _⟩ => show win2_3.index t (1 : Fin 2) * 64 + 1 * k.val = k.val; rw [e1]; omega

/-- The hidden weights are whole at every point. -/
theorem wd_blk (c : Dev nD) (t : Fin cfg2.N) (p : Fin 64) (k : Fin 128) :
    (iblk2 V c 4 t : Vec Ideal S64x128 .f32) (ix2 p k) = (V c main_arg6 : S64x128.Idx → EReal) (ix2 p k) := by
  obtain ⟨e0, e1⟩ := idx2_4 t
  unfold iblk2
  rw [View.read_apply]
  show V c main_arg6 _ = V c main_arg6 _
  refine congrArg (V c main_arg6) (funext fun a => Fin.ext ?_)
  match a with
  | ⟨0, _⟩ => show win2_4.index t (0 : Fin 2) * 64 + 1 * p.val = p.val; rw [e0]; omega
  | ⟨1, _⟩ => show win2_4.index t (1 : Fin 2) * 128 + 1 * k.val = k.val; rw [e1]; omega

/-- The hidden bias row is whole at every point. -/
theorem bd_blk (c : Dev nD) (t : Fin cfg2.N) (p : Fin 1) (k : Fin 128) :
    (iblk2 V c 5 t : Vec Ideal S1x128 .f32) (ix2 p k) = (V c main_v58 : S1x128.Idx → EReal) (ix2 p k) := by
  obtain ⟨e0, e1⟩ := idx2_5 t
  unfold iblk2
  rw [View.read_apply]
  show V c main_v58 _ = V c main_v58 _
  refine congrArg (V c main_v58) (funext fun a => Fin.ext ?_)
  match a with
  | ⟨0, _⟩ => show win2_5.index t (0 : Fin 2) * 1 + 1 * p.val = p.val; rw [e0]; omega
  | ⟨1, _⟩ => show win2_5.index t (1 : Fin 2) * 128 + 1 * k.val = k.val; rw [e1]; omega

/-- The output weights are whole at every point. -/
theorem wo_blk (c : Dev nD) (t : Fin cfg2.N) (p : Fin 128) (k : Fin 2) :
    (iblk2 V c 6 t : Vec Ideal S128x2 .f32) (ix2 p k) = (V c main_arg8 : S128x2.Idx → EReal) (ix2 p k) := by
  obtain ⟨e0, e1⟩ := idx2_6 t
  unfold iblk2
  rw [View.read_apply]
  show V c main_arg8 _ = V c main_arg8 _
  refine congrArg (V c main_arg8) (funext fun a => Fin.ext ?_)
  match a with
  | ⟨0, _⟩ => show win2_6.index t (0 : Fin 2) * 128 + 1 * p.val = p.val; rw [e0]; omega
  | ⟨1, _⟩ => show win2_6.index t (1 : Fin 2) * 2 + 1 * k.val = k.val; rw [e1]; omega

/-- The output bias row is whole at every point. -/
theorem bo_blk (c : Dev nD) (t : Fin cfg2.N) (p : Fin 1) (k : Fin 2) :
    (iblk2 V c 7 t : Vec Ideal S1x2 .f32) (ix2 p k) = (V c main_v59 : S1x2.Idx → EReal) (ix2 p k) := by
  obtain ⟨e0, e1⟩ := idx2_7 t
  unfold iblk2
  rw [View.read_apply]
  show V c main_v59 _ = V c main_v59 _
  refine congrArg (V c main_v59) (funext fun a => Fin.ext ?_)
  match a with
  | ⟨0, _⟩ => show win2_7.index t (0 : Fin 2) * 1 + 1 * p.val = p.val; rw [e0]; omega
  | ⟨1, _⟩ => show win2_7.index t (1 : Fin 2) * 2 + 1 * k.val = k.val; rw [e1]; omega

/-- Entry (p, f) of the block point t writes back sits at (5000 t + p, f) of the array. -/
theorem emb8 (t : Fin cfg2.N) (p : Fin 5000) (f : Fin 2) :
    ((cfg2.win 8).blk t).view.emb (ix2 p f) = (ix2 (row t p) f : S100000x2.Idx) := by
  obtain ⟨e0, e1⟩ := idx2_8 t
  refine funext fun a => Fin.ext ?_
  match a with
  | ⟨0, _⟩ => show win2_8.index t (0 : Fin 2) * 5000 + 1 * p.val = 5000 * t.val + p.val; rw [e0]; omega
  | ⟨1, _⟩ => show win2_8.index t (1 : Fin 2) * 2 + 1 * f.val = f.val; rw [e1]; omega

/-! ## What a point writes back -/

/-- What point t writes back is block t of any array whose entry (r, j) is the output layer's value of row r. -/
theorem flushed8_eq (c : Dev nD) (AGG H : S100000x64.Idx → EReal) (D : S100000x1.Idx → EReal) (B : S1x64.Idx → EReal)
    (Wd : S64x128.Idx → EReal) (Bd : S1x128.Idx → EReal) (Wo : S128x2.Idx → EReal) (Bo : S1x2.Idx → EReal)
    (hAGG : (V c main_v56 : S100000x64.Idx → EReal) = AGG) (hH : (V c main_v43_1 : S100000x64.Idx → EReal) = H)
    (hD : (V c main_v27 : S100000x1.Idx → EReal) = D) (hB : (V c main_v57 : S1x64.Idx → EReal) = B)
    (hWd : (V c main_arg6 : S64x128.Idx → EReal) = Wd) (hBd : (V c main_v58 : S1x128.Idx → EReal) = Bd)
    (hWo : (V c main_arg8 : S128x2.Idx → EReal) = Wo) (hBo : (V c main_v59 : S1x2.Idx → EReal) = Bo)
    (G : S100000x2.Idx → EReal)
    (hG : ∀ (r : Fin 100000) (j : Fin 2), G (ix2 r j) = (∑ e : Fin 128, Cert.GcnSpec.pos ((∑ k : Fin 64, Cert.GcnSpec.act (AGG (ix2 r k)) (H (ix2 r k)) (D (ix2 r (0 : Fin 1))) (B (ix2 (0 : Fin 1) k)) * Wd (ix2 k e)) + Bd (ix2 (0 : Fin 1) e)) * Wo (ix2 e j)) + Bo (ix2 (0 : Fin 1) j))
    (t : Fin cfg2.N) :
    (dat2 V c).flushed 8 t = ((cfg2.win 8).blk t).view.read (Elt Ideal) G := by
  show (cfg2.win 8).cut (grid2.coords t) ((dat2 V c).after 8 t) = _
  rw [after2_8]
  unfold out2_8
  rw [View.canon_unit_zero hz]
  simp only [View.ld_unit_zero (S := S5000x64) hz, View.ld_unit_zero (S := S5000x1) hz, View.ld_unit_zero (S := S1x64) hz, View.ld_unit_zero (S := S64x128) hz, View.ld_unit_zero (S := S1x128) hz, View.ld_unit_zero (S := S128x2) hz, View.ld_unit_zero (S := S1x2) hz]
  refine funext fun (y : S5000x2.Idx) => ?_
  obtain ⟨p, j, rfl⟩ : ∃ (p : Fin 5000) (j : Fin 2), y = ix2 p j := ⟨y 0, y 1, eq_ix2 y⟩
  show k2_pay1 (iblk2 V c 0 t) (iblk2 V c 1 t) (iblk2 V c 2 t) (iblk2 V c 3 t) (iblk2 V c 4 t) (iblk2 V c 5 t) (iblk2 V c 6 t) (iblk2 V c 7 t) (ix2 p j) = G (((cfg2.win 8).blk t).view.emb (ix2 p j))
  rw [emb8, hG]
  refine (Cert.KernelIdeal.Payloads.head2_apply _ _ _ _ _ _ _ _ p j).trans ?_
  rw [bo_blk, hBo]
  refine congrArg (· + Bo (ix2 (0 : Fin 1) j)) (Finset.sum_congr rfl fun e _ => ?_)
  rw [wo_blk, bd_blk, hWo, hBd]
  refine congrArg (fun s => Cert.GcnSpec.pos (s + Bd (ix2 (0 : Fin 1) e)) * Wo (ix2 e j)) (Finset.sum_congr rfl fun k _ => ?_)
  rw [agg_blk, own_blk, loop_blk, bias_blk, wd_blk, hAGG, hH, hD, hB, hWd]
  try rfl

/-! ## The blocks cover the array -/

/-- An index of the array is in point t's block iff each coordinate is in the block's range. -/
theorem mem_blk8 (t : Fin cfg2.N) (i : S100000x2.Idx) :
    i ∈ ((cfg2.win 8).blk t).view.set ↔ ∀ a : Fin 2, win2_8.index t a * S5000x2.size a ≤ (i a).val ∧ (i a).val < win2_8.index t a * S5000x2.size a + S5000x2.size a := by
  show i ∈ ((View.whole main_v60).slice (win2_8.rect t)).set ↔ _
  rw [View.set_slice_whole, Rect.mem_set_unit]
  exact Iff.rfl

/-- Row r lies in the block of point r / 5000. -/
theorem cover8 (i : S100000x2.Idx) : ∃ t : Fin cfg2.N, (cfg2.win 8).flush t = true ∧ i ∈ ((cfg2.win 8).blk t).view.set := by
  have hi0 : (i 0).val < 100000 := (i 0).isLt
  have hi1 : (i 1).val < 2 := (i 1).isLt
  have hN : cfg2.N = 20 := N_2
  have ht : (i 0).val / 5000 < cfg2.N := by rw [hN]; omega
  obtain ⟨e0, e1⟩ := idx2_8 ⟨(i 0).val / 5000, ht⟩
  refine ⟨⟨(i 0).val / 5000, ht⟩, flush2_8 _, ?_⟩
  rw [mem_blk8]
  intro a
  match a with
  | ⟨0, _⟩ =>
    show win2_8.index ⟨(i 0).val / 5000, ht⟩ (0 : Fin 2) * 5000 ≤ (i 0).val ∧ (i 0).val < win2_8.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_8.index ⟨(i 0).val / 5000, ht⟩ (1 : Fin 2) * 2 ≤ (i 1).val ∧ (i 1).val < win2_8.index ⟨(i 0).val / 5000, ht⟩ (1 : Fin 2) * 2 + 2
    rw [e1]; omega

/-! ## The array after the region -/

/-- After the region the result array holds the output layer's value of every row. -/
theorem final8 (c : Dev nD) (AGG H : S100000x64.Idx → EReal) (D : S100000x1.Idx → EReal) (B : S1x64.Idx → EReal)
    (Wd : S64x128.Idx → EReal) (Bd : S1x128.Idx → EReal) (Wo : S128x2.Idx → EReal) (Bo : S1x2.Idx → EReal)
    (hAGG : (V c main_v56 : S100000x64.Idx → EReal) = AGG) (hH : (V c main_v43_1 : S100000x64.Idx → EReal) = H)
    (hD : (V c main_v27 : S100000x1.Idx → EReal) = D) (hB : (V c main_v57 : S1x64.Idx → EReal) = B)
    (hWd : (V c main_arg6 : S64x128.Idx → EReal) = Wd) (hBd : (V c main_v58 : S1x128.Idx → EReal) = Bd)
    (hWo : (V c main_arg8 : S128x2.Idx → EReal) = Wo) (hBo : (V c main_v59 : S1x2.Idx → EReal) = Bo)
    (G : S100000x2.Idx → EReal)
    (hG : ∀ (r : Fin 100000) (j : Fin 2), G (ix2 r j) = (∑ e : Fin 128, Cert.GcnSpec.pos ((∑ k : Fin 64, Cert.GcnSpec.act (AGG (ix2 r k)) (H (ix2 r k)) (D (ix2 r (0 : Fin 1))) (B (ix2 (0 : Fin 1) k)) * Wd (ix2 k e)) + Bd (ix2 (0 : Fin 1) e)) * Wo (ix2 e j)) + Bo (ix2 (0 : Fin 1) j)) :
    (dat2 V c).arrAt 8 cfg2.N = G :=
  (dat2 V c).arrAt_eq_of_cover 8 G (fun t _ => flushed8_eq V c AGG H D B Wd Bd Wo Bo hAGG hH hD hB hWd hBd hWo hBo G hG t) cover8

end Cert.KernelIdeal.Region2

end
-- ==== Proof.RefStages.lean ====
/-
  The reference's layers read one entry at a time, on the extended reals.

  The reference computes, for 100000 nodes with 64 features each: a projection by a 64 x 64 matrix; a graph-convolution
  layer that adds, at every node, the sum over its incoming edges, the node's own projected row scaled by the node's
  self-loop weight, and a bias, and keeps the positive part; the same layer once more on the result with a second
  matrix and bias; and a dense head of two affine maps with a positive part between them. Every statement below reads
  one of these arrays at a single entry (r, f) and says which scalars it is made of: an inner product for a matrix
  product, the scalar activation for a layer, and for the head the composite of both. The edge sums and the self-loop
  weights stay as named earlier stages; nothing here looks inside them.

  All arithmetic is that of the extended reals: no rounding, and a sum has no order.
-/
import proofs.«134011_j76656576299690_2_alg».proof.Proof.Gen.ReferenceIdeal.Read
import proofs.«134011_j76656576299690_2_alg».proof.Proof.Spec
import proofs.«134011_j76656576299690_2_alg».proof.Proof.LibInnerProducts
import Idealize.ShloMosaic.Lib.ValueIdx
import Idealize.ShloMosaic.Lib.Pipeline.Value
import Idealize.ShloMosaic.PureOps.Ideal.Laws

noncomputable section

namespace Cert.ReferenceIdeal.Stages

open Idealize.ShloMosaic Idealize.ShloMosaic.ValueIdx Cert.ReferenceIdeal Cert.ReferenceIdeal.Read
open scoped BigOperators

-- A binary32 array of shape `T` holding extended reals.
set_option quotPrecheck false in
local notation "B⟦" T "⟧" => (⟨T, .f32⟩ : BufTy).Contents (Elt Ideal)
-- The edge list: a `2 x 1600000` array of 32-bit integers.
set_option quotPrecheck false in
local notation "Edges" => (⟨S2x1600000, .i32⟩ : BufTy).Contents (Elt Ideal)

/-! ## Where the broadcasts read

A vector over the nodes is first made a one-column matrix and then repeated along the rows' 64 entries, so entry
(r, f) of the result reads the vector at r. A bias over the features is first made a one-row matrix and then repeated
down the 100000 rows, so entry (r, f) reads the bias at f. The same two facts hold for the widths 128 and 2 of the head. -/

theorem node_of_entry (r : Fin 100000) (f : Fin 64) : idx_main_v41 (idx_main_v42 (ix2 r f)) = ix1 r :=
  funext fun a => Fin.ext (by match a with | ⟨0, _⟩ => rfl)

theorem feature_of_entry (r : Fin 100000) (f : Fin 64) : idx_main_v45 (idx_main_v46 (ix2 r f)) = ix1 f :=
  funext fun a => Fin.ext (by match a with | ⟨0, _⟩ => rfl)

theorem node_of_entry' (r : Fin 100000) (f : Fin 64) : idx_main_v86 (idx_main_v87 (ix2 r f)) = ix1 r :=
  funext fun a => Fin.ext (by match a with | ⟨0, _⟩ => rfl)

theorem feature_of_entry' (r : Fin 100000) (f : Fin 64) : idx_main_v90 (idx_main_v91 (ix2 r f)) = ix1 f :=
  funext fun a => Fin.ext (by match a with | ⟨0, _⟩ => rfl)

theorem hidden_of_entry (r : Fin 100000) (e : Fin 128) : idx_main_v95 (idx_main_v96 (ix2 r e)) = ix1 e :=
  funext fun a => Fin.ext (by match a with | ⟨0, _⟩ => rfl)

theorem class_of_entry (r : Fin 100000) (j : Fin 2) : idx_main_v100 (idx_main_v101 (ix2 r j)) = ix1 j :=
  funext fun a => Fin.ext (by match a with | ⟨0, _⟩ => rfl)

/-! ## The first layer -/

/-- The projected features: entry (r, f) is the inner product of node r's features with column f of the first matrix. -/
theorem v4_apply (x0 : B⟦S100000x64⟧) (x2 : B⟦S64x64⟧) (r : Fin 100000) (f : Fin 64) :
    val_main_v4 (F := Ideal) x0 x2 (ix2 r f) = ∑ k : Fin 64, x0 (ix2 r k) * x2 (ix2 k f) := by
  unfold val_main_v4
  exact InnerProducts.dotGeneral_apply dot_S100000x64_S64x64_S100000x64_1_0_0_1_n_n rfl none x0 x2 r f

/-- The first layer's output: entry (r, f) is the positive part of the edge sum at (r, f), plus the projected entry
    times node r's self-loop weight, plus the bias of feature f. -/
theorem v48_apply (x0 : B⟦S100000x64⟧) (x1 : Edges) (x2 : B⟦S64x64⟧) (x3 : B⟦S64⟧) (r : Fin 100000) (f : Fin 64) :
    val_main_v48 (F := Ideal) x0 x1 x2 x3 (ix2 r f)
      = Cert.GcnSpec.act (val_main_v39 (F := Ideal) x0 x1 x2 (ix2 r f)) (val_main_v4 (F := Ideal) x0 x2 (ix2 r f)) (val_main_v40 (F := Ideal) x1 (ix1 r)) (x3 (ix1 f)) := by
  rw [val_main_v48_apply, val_main_v47_apply, val_main_v44_apply, val_main_v43_apply, val_main_v42_apply,
    val_main_v41_apply, val_main_v46_apply, val_main_v45_apply, val_main_call0_v0_apply, val_main_call0_cst_apply,
    node_of_entry, feature_of_entry]
  rfl

/-! ## The second layer -/

/-- The first layer's output projected by the second matrix. -/
theorem v49_apply (x0 : B⟦S100000x64⟧) (x1 : Edges) (x2 : B⟦S64x64⟧) (x3 : B⟦S64⟧) (x4 : B⟦S64x64⟧) (r : Fin 100000) (f : Fin 64) :
    val_main_v49 (F := Ideal) x0 x1 x2 x3 x4 (ix2 r f) = ∑ k : Fin 64, val_main_v48 (F := Ideal) x0 x1 x2 x3 (ix2 r k) * x4 (ix2 k f) := by
  unfold val_main_v49
  exact InnerProducts.dotGeneral_apply dot_S100000x64_S64x64_S100000x64_1_0_0_1_n_n rfl none (val_main_v48 (F := Ideal) x0 x1 x2 x3) x4 r f

/-- The second layer's output, the same activation on the second layer's edge sum, projection, weight and bias. -/
theorem v93_apply (x0 : B⟦S100000x64⟧) (x1 : Edges) (x2 : B⟦S64x64⟧) (x3 : B⟦S64⟧) (x4 : B⟦S64x64⟧) (x5 : B⟦S64⟧) (r : Fin 100000) (f : Fin 64) :
    val_main_v93 (F := Ideal) x0 x1 x2 x3 x4 x5 (ix2 r f)
      = Cert.GcnSpec.act (val_main_v84 (F := Ideal) x0 x1 x2 x3 x4 (ix2 r f)) (val_main_v49 (F := Ideal) x0 x1 x2 x3 x4 (ix2 r f)) (val_main_v85 (F := Ideal) x1 (ix1 r)) (x5 (ix1 f)) := by
  rw [val_main_v93_apply, val_main_v92_apply, val_main_v89_apply, val_main_v88_apply, val_main_v87_apply,
    val_main_v86_apply, val_main_v91_apply, val_main_v90_apply, val_main_call1_v0_apply, val_main_call1_cst_apply,
    node_of_entry', feature_of_entry']
  rfl

/-! ## The dense head -/

/-- The head's hidden pre-activation without its bias: an inner product with a column of the 64 x 128 matrix. -/
theorem v94_apply (x0 : B⟦S100000x64⟧) (x1 : Edges) (x2 : B⟦S64x64⟧) (x3 : B⟦S64⟧) (x4 : B⟦S64x64⟧) (x5 : B⟦S64⟧) (x6 : B⟦S64x128⟧)
    (r : Fin 100000) (e : Fin 128) :
    val_main_v94 (F := Ideal) x0 x1 x2 x3 x4 x5 x6 (ix2 r e)
      = ∑ k : Fin 64, val_main_v93 (F := Ideal) x0 x1 x2 x3 x4 x5 (ix2 r k) * x6 (ix2 k e) := by
  unfold val_main_v94
  exact InnerProducts.dotGeneral_apply dot_S100000x64_S64x128_S100000x128_1_0_0_1_n_n rfl none (val_main_v93 (F := Ideal) x0 x1 x2 x3 x4 x5) x6 r e

/-- A hidden unit of the head: the positive part of that inner product plus the unit's bias. -/
theorem v98_apply (x0 : B⟦S100000x64⟧) (x1 : Edges) (x2 : B⟦S64x64⟧) (x3 : B⟦S64⟧) (x4 : B⟦S64x64⟧) (x5 : B⟦S64⟧) (x6 : B⟦S64x128⟧)
    (x7 : B⟦S128⟧) (r : Fin 100000) (e : Fin 128) :
    val_main_v98 (F := Ideal) x0 x1 x2 x3 x4 x5 x6 x7 (ix2 r e)
      = Cert.GcnSpec.pos ((∑ k : Fin 64, val_main_v93 (F := Ideal) x0 x1 x2 x3 x4 x5 (ix2 r k) * x6 (ix2 k e)) + x7 (ix1 e)) := by
  rw [val_main_v98_apply, val_main_v97_apply, val_main_v96_apply, val_main_v95_apply, val_main_call2_v0_apply,
    val_main_call2_cst_apply, hidden_of_entry, v94_apply]
  rfl

/-- The head's output without its bias: an inner product of the hidden units with a column of the 128 x 2 matrix. -/
theorem v99_apply (x0 : B⟦S100000x64⟧) (x1 : Edges) (x2 : B⟦S64x64⟧) (x3 : B⟦S64⟧) (x4 : B⟦S64x64⟧) (x5 : B⟦S64⟧) (x6 : B⟦S64x128⟧)
    (x7 : B⟦S128⟧) (x8 : B⟦S128x2⟧) (r : Fin 100000) (j : Fin 2) :
    val_main_v99 (F := Ideal) x0 x1 x2 x3 x4 x5 x6 x7 x8 (ix2 r j)
      = ∑ e : Fin 128, val_main_v98 (F := Ideal) x0 x1 x2 x3 x4 x5 x6 x7 (ix2 r e) * x8 (ix2 e j) := by
  unfold val_main_v99
  exact InnerProducts.dotGeneral_apply dot_S100000x128_S128x2_S100000x2_1_0_0_1_n_n rfl none (val_main_v98 (F := Ideal) x0 x1 x2 x3 x4 x5 x6 x7) x8 r j

/-- The reference's result at (r, j): over the 128 hidden units, the positive part of (second-layer row r against
    column e of the first head matrix, plus bias e) times entry (e, j) of the second head matrix, summed, plus bias j. -/
theorem v102_apply (x0 : B⟦S100000x64⟧) (x1 : Edges) (x2 : B⟦S64x64⟧) (x3 : B⟦S64⟧) (x4 : B⟦S64x64⟧) (x5 : B⟦S64⟧) (x6 : B⟦S64x128⟧)
    (x7 : B⟦S128⟧) (x8 : B⟦S128x2⟧) (x9 : B⟦S2⟧) (r : Fin 100000) (j : Fin 2) :
    val_main_v102 (F := Ideal) x0 x1 x2 x3 x4 x5 x6 x7 x8 x9 (ix2 r j)
      = (∑ e : Fin 128, Cert.GcnSpec.pos ((∑ k : Fin 64, val_main_v93 (F := Ideal) x0 x1 x2 x3 x4 x5 (ix2 r k) * x6 (ix2 k e)) + x7 (ix1 e)) * x8 (ix2 e j)) + x9 (ix1 j) := by
  rw [val_main_v102_apply, val_main_v101_apply, val_main_v100_apply, class_of_entry, v99_apply]
  have hsum : (∑ e : Fin 128, val_main_v98 (F := Ideal) x0 x1 x2 x3 x4 x5 x6 x7 (ix2 r e) * x8 (ix2 e j))
      = ∑ e : Fin 128, Cert.GcnSpec.pos ((∑ k : Fin 64, val_main_v93 (F := Ideal) x0 x1 x2 x3 x4 x5 (ix2 r k) * x6 (ix2 k e)) + x7 (ix1 e)) * x8 (ix2 e j) :=
    Finset.sum_congr rfl fun e _ => by rw [v98_apply]
  rw [hsum]
  rfl

end Cert.ReferenceIdeal.Stages

end
-- ==== Proof.Chain.lean ====
/-
  The idealized kernel program's result is the reference's last stage of the launch arguments.

  Walking the six segments from the launch: the first host stretch leaves the edge vectors, the edge weights and the
  self-loop weights, which are the reference's stages of the edge list; the first region leaves the features'
  projection, the reference's first matrix product; the second stretch gathers, scales and scatter-adds it — the
  reference's same three operations on equal operands; the second region leaves the first layer's activated rows and
  their projection; the third stretch aggregates again; the third region leaves the output layer. At each region the
  array is identified entry by entry: the region's entry (r, ·) and the reference's stage at (r, ·) are the same
  expression in equal operands.
-/
import proofs.«134011_j76656576299690_2_alg».proof.Proof.Gen.KernelIdeal.Frame
import proofs.«134011_j76656576299690_2_alg».proof.Proof.Stretches
import proofs.«134011_j76656576299690_2_alg».proof.Proof.Region0
import proofs.«134011_j76656576299690_2_alg».proof.Proof.Region1
import proofs.«134011_j76656576299690_2_alg».proof.Proof.Region2
import proofs.«134011_j76656576299690_2_alg».proof.Proof.RefStages

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Cert.ReferenceIdeal.Read Cert.ReferenceIdeal.Stages Cert.KernelIdeal.Stretches

variable (m : (ℓ : Loc nD τ sig) → Buf (Elt Ideal) ℓ) (ρ : Dev nD → PrngReg) (c : Dev nD)

/-! ## After the first host stretch -/

theorem w1_src : W1 m ρ c (Proc.devRef .tc main_v1) = val_main_v1 (F := Ideal) (m ((c : Thread nD τ).loc main_arg1)) := s0_src (W0 m ρ c)
theorem w1_dst : W1 m ρ c (Proc.devRef .tc main_v3) = val_main_v3 (F := Ideal) (m ((c : Thread nD τ).loc main_arg1)) := s0_dst (W0 m ρ c)
theorem w1_norm : W1 m ρ c (Proc.devRef .tc main_v25) = val_main_v26 (F := Ideal) (m ((c : Thread nD τ).loc main_arg1)) := s0_norm (W0 m ρ c)
theorem w1_loop (r : Fin 100000) :
    (W1 m ρ c (Proc.devRef .tc main_v27) : S100000x1.Idx → EReal) (ix2 r (0 : Fin 1)) = val_main_v40 (F := Ideal) (m ((c : Thread nD τ).loc main_arg1)) (ix1 r) :=
  s0_d2 (W0 m ρ c) r
theorem w1_arg0 : W1 m ρ c (Proc.devRef .tc main_arg0) = (m ((c : Thread nD τ).loc main_arg0)) := s0_keep_main_arg0 (W0 m ρ c)
theorem w1_arg2 : W1 m ρ c (Proc.devRef .tc main_arg2) = (m ((c : Thread nD τ).loc main_arg2)) := s0_keep_main_arg2 (W0 m ρ c)
theorem w1_arg3 : W1 m ρ c (Proc.devRef .tc main_arg3) = (m ((c : Thread nD τ).loc main_arg3)) := s0_keep_main_arg3 (W0 m ρ c)
theorem w1_arg4 : W1 m ρ c (Proc.devRef .tc main_arg4) = (m ((c : Thread nD τ).loc main_arg4)) := s0_keep_main_arg4 (W0 m ρ c)
theorem w1_arg5 : W1 m ρ c (Proc.devRef .tc main_arg5) = (m ((c : Thread nD τ).loc main_arg5)) := s0_keep_main_arg5 (W0 m ρ c)
theorem w1_arg6 : W1 m ρ c (Proc.devRef .tc main_arg6) = (m ((c : Thread nD τ).loc main_arg6)) := s0_keep_main_arg6 (W0 m ρ c)
theorem w1_arg7 : W1 m ρ c (Proc.devRef .tc main_arg7) = (m ((c : Thread nD τ).loc main_arg7)) := s0_keep_main_arg7 (W0 m ρ c)
theorem w1_arg8 : W1 m ρ c (Proc.devRef .tc main_arg8) = (m ((c : Thread nD τ).loc main_arg8)) := s0_keep_main_arg8 (W0 m ρ c)
theorem w1_arg9 : W1 m ρ c (Proc.devRef .tc main_arg9) = (m ((c : Thread nD τ).loc main_arg9)) := s0_keep_main_arg9 (W0 m ρ c)

/-! ## After the first region: the features' projection -/

theorem w2_proj : W2 m ρ c (Proc.devRef .tc main_v28) = val_main_v4 (F := Ideal) (m ((c : Thread nD τ).loc main_arg0)) (m ((c : Thread nD τ).loc main_arg2)) :=
  (W2_arr m ρ c 2).trans (Region0.final (V1 m ρ) c (m ((c : Thread nD τ).loc main_arg0)) (m ((c : Thread nD τ).loc main_arg2)) (w1_arg0 m ρ c) (w1_arg2 m ρ c) _ fun r f => v4_apply _ _ r f)

/-- The first region changes no buffer but its own arrays. -/
theorem w2_keep (b : Ref sig .tc) (hb : ∀ w, Pipeline.arrRef spec0 w ≠ b) :
    W2 m ρ c (Proc.devRef .tc b) = W1 m ρ c (Proc.devRef .tc b) := W2_of_ne m ρ c b hb

/-! ## After the second host stretch: the first layer's sums over incoming edges -/

theorem w3_agg : W3 m ρ c (Proc.devRef .tc main_v41) = val_main_v39 (F := Ideal) (m ((c : Thread nD τ).loc main_arg0)) (m ((c : Thread nD τ).loc main_arg1)) (m ((c : Thread nD τ).loc main_arg2)) :=
  s1_agg (W2 m ρ c) (m ((c : Thread nD τ).loc main_arg0)) (m ((c : Thread nD τ).loc main_arg1)) (m ((c : Thread nD τ).loc main_arg2)) (w2_proj m ρ c)
    ((w2_keep m ρ c main_v1 (by decide)).trans (w1_src m ρ c))
    ((w2_keep m ρ c main_v3 (by decide)).trans (w1_dst m ρ c))
    ((w2_keep m ρ c main_v25 (by decide)).trans (w1_norm m ρ c))
theorem w3_proj : W3 m ρ c (Proc.devRef .tc main_v28) = val_main_v4 (F := Ideal) (m ((c : Thread nD τ).loc main_arg0)) (m ((c : Thread nD τ).loc main_arg2)) :=
  (s1_keep_main_v28 (W2 m ρ c)).trans (w2_proj m ρ c)
theorem w3_loop (r : Fin 100000) :
    (W3 m ρ c (Proc.devRef .tc main_v27) : S100000x1.Idx → EReal) (ix2 r (0 : Fin 1)) = val_main_v40 (F := Ideal) (m ((c : Thread nD τ).loc main_arg1)) (ix1 r) :=
  (congrFun ((s1_keep_main_v27 (W2 m ρ c)).trans (w2_keep m ρ c main_v27 (by decide))) (ix2 r (0 : Fin 1))).trans (w1_loop m ρ c r)
theorem w3_bias (f : Fin 64) :
    (W3 m ρ c (Proc.devRef .tc main_v42) : S1x64.Idx → EReal) (ix2 (0 : Fin 1) f) = ((m ((c : Thread nD τ).loc main_arg3)) : S64.Idx → EReal) (ix1 f) :=
  (s1_bias (W2 m ρ c) f).trans (congrFun ((w2_keep m ρ c main_arg3 (by decide)).trans (w1_arg3 m ρ c)) (ix1 f))
theorem w3_w : W3 m ρ c (Proc.devRef .tc main_arg4) = (m ((c : Thread nD τ).loc main_arg4)) :=
  (s1_keep_main_arg4 (W2 m ρ c)).trans ((w2_keep m ρ c main_arg4 (by decide)).trans (w1_arg4 m ρ c))

/-! ## After the second region: the first layer's activated rows and their projection -/

theorem w4_act : W4 m ρ c (Proc.devRef .tc main_v43_0) = val_main_v48 (F := Ideal) (m ((c : Thread nD τ).loc main_arg0)) (m ((c : Thread nD τ).loc main_arg1)) (m ((c : Thread nD τ).loc main_arg2)) (m ((c : Thread nD τ).loc main_arg3)) :=
  (W4_arr m ρ c 5).trans (Region1.final5 (V3 m ρ) c (val_main_v39 (F := Ideal) (m ((c : Thread nD τ).loc main_arg0)) (m ((c : Thread nD τ).loc main_arg1)) (m ((c : Thread nD τ).loc main_arg2))) (val_main_v4 (F := Ideal) (m ((c : Thread nD τ).loc main_arg0)) (m ((c : Thread nD τ).loc main_arg2)))
    (W3 m ρ c (Proc.devRef .tc main_v27)) (W3 m ρ c (Proc.devRef .tc main_v42))
    (w3_agg m ρ c) (w3_proj m ρ c) rfl rfl _ fun r f => by
    rw [v48_apply, w3_loop m ρ c r, w3_bias m ρ c f])

theorem w4_proj : W4 m ρ c (Proc.devRef .tc main_v43_1) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W4_arr m ρ c 6).trans (Region1.final6 (V3 m ρ) c (val_main_v39 (F := Ideal) (m ((c : Thread nD τ).loc main_arg0)) (m ((c : Thread nD τ).loc main_arg1)) (m ((c : Thread nD τ).loc main_arg2))) (val_main_v4 (F := Ideal) (m ((c : Thread nD τ).loc main_arg0)) (m ((c : Thread nD τ).loc main_arg2)))
    (W3 m ρ c (Proc.devRef .tc main_v27)) (W3 m ρ c (Proc.devRef .tc main_v42))
    (w3_agg m ρ c) (w3_proj m ρ c) rfl rfl (m ((c : Thread nD τ).loc main_arg4)) (w3_w m ρ c) _ fun r f => by
    rw [v49_apply]
    refine Finset.sum_congr rfl fun k _ => ?_
    rw [v48_apply, w3_loop m ρ c r, w3_bias m ρ c k])

/-- The self-loop weights are an input of the second region: it leaves them as it found them. -/
theorem w4_loop_eq : W4 m ρ c (Proc.devRef .tc main_v27) = W3 m ρ c (Proc.devRef .tc main_v27) :=
  (W4_arr m ρ c 2).trans (((dat1 (V3 m ρ) c).arrAt_in 2 rfl _).trans (A_eq1 (V3 m ρ) c 2))

/-- The second region changes no buffer but its own arrays. -/
theorem w4_keep (b : Ref sig .tc) (hb : ∀ w, Pipeline.arrRef spec1 w ≠ b) :
    W4 m ρ c (Proc.devRef .tc b) = W3 m ρ c (Proc.devRef .tc b) := W4_of_ne m ρ c b hb

/-- A buffer neither the second stretch nor the first two regions write is as the first stretch left it. -/
theorem w4_back (b : Ref sig .tc) (h0 : ∀ w, Pipeline.arrRef spec0 w ≠ b) (h1 : ∀ w, Pipeline.arrRef spec1 w ≠ b)
    (hs : StableHlo.after hostOps1 (W2 m ρ c) (Proc.devRef .tc b) = W2 m ρ c (Proc.devRef .tc b)) :
    W4 m ρ c (Proc.devRef .tc b) = W1 m ρ c (Proc.devRef .tc b) :=
  (w4_keep m ρ c b h1).trans (hs.trans (w2_keep m ρ c b h0))

/-! ## After the third host stretch: the second layer's sums over incoming edges -/

theorem w5_agg : W5 m ρ c (Proc.devRef .tc main_v56) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  s2_agg (W4 m ρ c) (m ((c : Thread nD τ).loc main_arg0)) (m ((c : Thread nD τ).loc main_arg1)) (m ((c : Thread nD τ).loc main_arg2)) (m ((c : Thread nD τ).loc main_arg3)) (m ((c : Thread nD τ).loc main_arg4)) (w4_proj m ρ c)
    ((w4_back m ρ c main_v1 (by decide) (by decide) (s1_keep_main_v1 (W2 m ρ c))).trans (w1_src m ρ c))
    ((w4_back m ρ c main_v3 (by decide) (by decide) (s1_keep_main_v3 (W2 m ρ c))).trans (w1_dst m ρ c))
    ((w4_back m ρ c main_v25 (by decide) (by decide) (s1_keep_main_v25 (W2 m ρ c))).trans (w1_norm m ρ c))
theorem w5_proj : W5 m ρ c (Proc.devRef .tc main_v43_1) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (s2_keep_main_v43_1 (W4 m ρ c)).trans (w4_proj m ρ c)
theorem w5_loop (r : Fin 100000) :
    (W5 m ρ c (Proc.devRef .tc main_v27) : S100000x1.Idx → EReal) (ix2 r (0 : Fin 1)) = val_main_v85 (F := Ideal) (m ((c : Thread nD τ).loc main_arg1)) (ix1 r) :=
  (congrFun ((s2_keep_main_v27 (W4 m ρ c)).trans (w4_loop_eq m ρ c)) (ix2 r (0 : Fin 1))).trans
    ((w3_loop m ρ c r).trans (congrFun (d2_again (m ((c : Thread nD τ).loc main_arg1))) (ix1 r)).symm)
theorem w5_bias5 (f : Fin 64) :
    (W5 m ρ c (Proc.devRef .tc main_v57) : S1x64.Idx → EReal) (ix2 (0 : Fin 1) f) = ((m ((c : Thread nD τ).loc main_arg5)) : S64.Idx → EReal) (ix1 f) :=
  (s2_bias5 (W4 m ρ c) f).trans (congrFun ((w4_back m ρ c main_arg5 (by decide) (by decide) (s1_keep_main_arg5 (W2 m ρ c))).trans (w1_arg5 m ρ c)) (ix1 f))
theorem w5_bias7 (e : Fin 128) :
    (W5 m ρ c (Proc.devRef .tc main_v58) : S1x128.Idx → EReal) (ix2 (0 : Fin 1) e) = ((m ((c : Thread nD τ).loc main_arg7)) : S128.Idx → EReal) (ix1 e) :=
  (s2_bias7 (W4 m ρ c) e).trans (congrFun ((w4_back m ρ c main_arg7 (by decide) (by decide) (s1_keep_main_arg7 (W2 m ρ c))).trans (w1_arg7 m ρ c)) (ix1 e))
theorem w5_bias9 (j : Fin 2) :
    (W5 m ρ c (Proc.devRef .tc main_v59) : S1x2.Idx → EReal) (ix2 (0 : Fin 1) j) = ((m ((c : Thread nD τ).loc main_arg9)) : S2.Idx → EReal) (ix1 j) :=
  (s2_bias9 (W4 m ρ c) j).trans (congrFun ((w4_back m ρ c main_arg9 (by decide) (by decide) (s1_keep_main_arg9 (W2 m ρ c))).trans (w1_arg9 m ρ c)) (ix1 j))
theorem w5_wd : W5 m ρ c (Proc.devRef .tc main_arg6) = (m ((c : Thread nD τ).loc main_arg6)) :=
  (s2_keep_main_arg6 (W4 m ρ c)).trans ((w4_back m ρ c main_arg6 (by decide) (by decide) (s1_keep_main_arg6 (W2 m ρ c))).trans (w1_arg6 m ρ c))
theorem w5_wo : W5 m ρ c (Proc.devRef .tc main_arg8) = (m ((c : Thread nD τ).loc main_arg8)) :=
  (s2_keep_main_arg8 (W4 m ρ c)).trans ((w4_back m ρ c main_arg8 (by decide) (by decide) (s1_keep_main_arg8 (W2 m ρ c))).trans (w1_arg8 m ρ c))

/-! ## After the third region: the result -/

/-- The program's result buffer ends at the reference's last stage of the launch arguments. -/
theorem result : W6 m ρ c (Proc.devRef .tc main_v60)
    = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W6_arr m ρ c 8).trans (Region2.final8 (V5 m ρ) c
    (val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (W5 m ρ c (Proc.devRef .tc main_v27)) (W5 m ρ c (Proc.devRef .tc main_v57)) (m ((c : Thread nD τ).loc main_arg6))
    (W5 m ρ c (Proc.devRef .tc main_v58)) (m ((c : Thread nD τ).loc main_arg8)) (W5 m ρ c (Proc.devRef .tc main_v59))
    (w5_agg m ρ c) (w5_proj m ρ c) rfl rfl (w5_wd m ρ c) rfl (w5_wo m ρ c) rfl _ fun r j => by
    rw [v102_apply, w5_bias9 m ρ c j]
    refine congrArg (· + (m ((c : Thread nD τ).loc main_arg9)) (ix1 j)) (Finset.sum_congr rfl fun e _ => ?_)
    rw [w5_bias7 m ρ c e]
    refine congrArg (fun s => Cert.GcnSpec.pos (s + (m ((c : Thread nD τ).loc main_arg7)) (ix1 e)) * (m ((c : Thread nD τ).loc main_arg8)) (ix2 e j)) (Finset.sum_congr rfl fun k _ => ?_)
    rw [v93_apply, w5_loop m ρ c r, w5_bias5 m ρ c k])

end Cert.KernelIdeal.Chain

end
-- ==== Proof.Claims.lean ====
/-
  The five claims.

  The three frames: the two kernel programs' are the generated frame certificates; the reference is host operations
  only, and its frame is its run with the result dropped. The idealization rewrote nothing, so there is nothing to
  preserve. The algebraic claim: the idealized kernel program's run leaves its result buffer at the last boundary's
  contents, which are the reference's last stage of the launch arguments; the reference's run leaves its result at
  the same stage of its own arguments, which agree with the kernel's.
-/
import proofs.«134011_j76656576299690_2_alg».proof.Defs
import proofs.«134011_j76656576299690_2_alg».proof.Proof.Gen.Kernel.Frame
import proofs.«134011_j76656576299690_2_alg».proof.Proof.Gen.KernelIdeal.Frame
import proofs.«134011_j76656576299690_2_alg».proof.Proof.Gen.ReferenceIdeal.Run
import proofs.«134011_j76656576299690_2_alg».proof.Proof.Gen.ReferenceIdeal.Read
import proofs.«134011_j76656576299690_2_alg».proof.Proof.Gen.Pre_finite_inputs
import proofs.«134011_j76656576299690_2_alg».proof.Proof.KernelRun
import proofs.«134011_j76656576299690_2_alg».proof.Proof.Chain

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at the reference's last stage of the (agreeing) arguments. -/
theorem algebraic : Cert.algebraic_KernelIdeal_ReferenceIdeal := by
  intro m ρ m' ρ' _ hagree
  refine ⟨fun c => Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.result m ρ c), (h c).2⟩)
      (Cert.KernelIdeal.Run.run_out m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v102_eq]
    obtain ⟨e0, e1, e2, e3, e4, e5, e6, e7, e8, e9⟩ := hagree c
    rw [e0, e1, e2, e3, e4, e5, e6, e7, e8, e9]

end Cert.Proof.Claims

end
-- ==== Proof.lean ====
/-
  A two-layer graph convolution with a dense head, as three pipelined regions among host gathers and scatter-adds,
  against the same network written as plain host operations: equal results on the extended reals.

  Each region computes, row block by row block, what the reference computes on whole arrays: a matrix product's rows
  depend on the same rows of its left factor, the activation is entrywise, and the biases and weights are whole at
  every point. The host operations between the regions (degrees, edge weights, gather, scale, scatter-add) are the
  reference's own, on operands that are equal by the regions before them. The modules: Spec (the scalar vocabulary),
  Payloads (the region bodies entry by entry), RefStages (the reference's stages entry by entry), Region0–Region2 (the
  blocks written back cover each result array), Stretches (the host operations between the regions), KernelRun (the
  program's run with its result named), Chain (the walk through the six segments), Claims (the five claims).
-/
import proofs.«134011_j76656576299690_2_alg».proof.Defs
import proofs.«134011_j76656576299690_2_alg».proof.Proof.Gen.Kernel
import proofs.«134011_j76656576299690_2_alg».proof.Proof.Gen.Kernel.Skeleton
import proofs.«134011_j76656576299690_2_alg».proof.Proof.Gen.Kernel.Launch
import proofs.«134011_j76656576299690_2_alg».proof.Proof.Gen.Kernel.Points
import proofs.«134011_j76656576299690_2_alg».proof.Proof.Gen.Kernel.Frame
import proofs.«134011_j76656576299690_2_alg».proof.Proof.Gen.KernelIdeal
import proofs.«134011_j76656576299690_2_alg».proof.Proof.Gen.KernelIdeal.Skeleton
import proofs.«134011_j76656576299690_2_alg».proof.Proof.Gen.KernelIdeal.Launch
import proofs.«134011_j76656576299690_2_alg».proof.Proof.Gen.KernelIdeal.Points
import proofs.«134011_j76656576299690_2_alg».proof.Proof.Gen.KernelIdeal.Frame
import proofs.«134011_j76656576299690_2_alg».proof.Proof.Gen.ReferenceIdeal
import proofs.«134011_j76656576299690_2_alg».proof.Proof.Gen.Pre_finite_inputs
import proofs.«134011_j76656576299690_2_alg».proof.Proof.Gen.ReferenceIdeal.Run
import proofs.«134011_j76656576299690_2_alg».proof.Proof.Gen.ReferenceIdeal.Read
import proofs.«134011_j76656576299690_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
